-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S32 : Shape := ⟨1, ![32]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x1x512x512 1) : IVec S_ 1 :=
  let main_c_5 : IVec S_ 1 := constantI S_ 1 1#1
  let main_v17 : IVec S_ 1 := (fun x v => Host.reduce IntOp.andi x v reducesTo_S32x1x512x512_S_d0_1_2_3 h_S_) main_v16 main_c_5
  let main_v18 : IVec S_ 1 := andi main_v13 main_v17
  main_v18

def fn {F : FTy → Type} [FloatOps F] (main_arg0 : FVec F S32x1x512x512 .f32) (main_arg1 : FVec F S32 .f32) (main_arg2 : FVec F S32x1x512x512 .f32) (main_arg3 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32x1x512x512 .f32 := Host.absf main_arg2
  let main_cst_2 : FVec F S_ .f32 := constant S_ .f32 0x7F800000#32
  let main_v10 : FVec F S32x1x512x512 .f32 := broadcastInDim S32x1x512x512 ![] bcast_S_S32x1x512x512 main_cst_2
  let main_v11 : IVec S32x1x512x512 1 := cmpf .olt main_v9 main_v10
  let main_c_3 : IVec S_ 1 := constantI S_ 1 1#1
  let main_v12 : IVec S_ 1 := (fun x v => Host.reduce IntOp.andi x v reducesTo_S32x1x512x512_S_d0_1_2_3 h_S_) main_v11 main_c_3
  let main_v13 : IVec S_ 1 := andi main_v8 main_v12
  let main_v14 : FVec F S32x1x512x512 .f32 := Host.absf main_arg3
  let main_cst_4 : FVec F S_ .f32 := constant S_ .f32 0x7F800000#32
  let main_v15 : FVec F S32x1x512x512 .f32 := broadcastInDim S32x1x512x512 ![] bcast_S_S32x1x512x512 main_cst_4
  let main_v16 : IVec S32x1x512x512 1 := cmpf .olt main_v14 main_v15
  fn_part1 (F := F) main_v13 main_v16
-- ==== Kernel.lean ====
abbrev S32x1x512x512 : Shape := ⟨4, ![32, 1, 512, 512]⟩
abbrev S32 : Shape := ⟨1, ![32]⟩
abbrev S32x1x1x1 : Shape := ⟨4, ![32, 1, 1, 1]⟩
abbrev S2x1x128 : Shape := ⟨3, ![2, 1, 128]⟩
abbrev S4x1x512x512 : Shape := ⟨4, ![4, 1, 512, 512]⟩
abbrev S4x1x1x1 : Shape := ⟨4, ![4, 1, 1, 1]⟩
abbrev S1x1x128 : Shape := ⟨3, ![1, 1, 128]⟩
abbrev S1x512 : Shape := ⟨2, ![1, 512]⟩
abbrev S4x1x512 : Shape := ⟨3, ![4, 1, 512]⟩
abbrev S4x1x1x512 : Shape := ⟨4, ![4, 1, 1, 512]⟩
abbrev S1x1x512 : Shape := ⟨3, ![1, 1, 512]⟩
abbrev S1x1x1x512 : Shape := ⟨4, ![1, 1, 1, 512]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S32x1x512x512, .f32⟩
  | .hbm, ⟨1, _⟩ => ⟨S32, .f32⟩
  | .hbm, ⟨2, _⟩ => ⟨S32x1x512x512, .f32⟩
  | .hbm, ⟨3, _⟩ => ⟨S32x1x512x512, .f32⟩
  | .hbm, ⟨4, _⟩ => ⟨S32x1x1x1, .f32⟩
  | .hbm, ⟨5, _⟩ => ⟨S2x1x128, .f32⟩
  | .hbm, ⟨6, _⟩ => ⟨S2x1x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S4x1x512x512, .f32⟩
  | .local _ .vmem, ⟨1, _⟩ => ⟨S4x1x512x512, .f32⟩
  | .local _ .vmem, ⟨2, _⟩ => ⟨S4x1x512x512, .f32⟩
  | .local _ .vmem, ⟨3, _⟩ => ⟨S4x1x512x512, .f32⟩
  | .local _ .vmem, ⟨4, _⟩ => ⟨S4x1x512x512, .f32⟩
  | .local _ .vmem, ⟨5, _⟩ => ⟨S4x1x512x512, .f32⟩
  | .local _ .vmem, ⟨6, _⟩ => ⟨S4x1x1x1, .f32⟩
  | .local _ .vmem, ⟨7, _⟩ => ⟨S4x1x1x1, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x512, .f32⟩
  | .local _ .vmem, ⟨13, _⟩ => ⟨S1x512, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_31 : BitVec 32 := 0#32
  let v49 : BitVec 1 := Scalar.cmpi .ne v48 c0_i32_31
  v49

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S32_S32x1x1x1 : S32.ShapeCasts S32x1x1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4x1x512x512_S4x1x512x512_0_0_0_0 : ∀ a, (![0, 0, 0, 0] : Fin 4 → Nat) a + S4x1x512x512.size a ≤ S4x1x512x512.size a
  h_S4x1x512x512 : 0 < S4x1x512x512.numel
  inb_S4x1x1x1_S4x1x1x1_0_0_0_0 : ∀ a, (![0, 0, 0, 0] : Fin 4 → Nat) a + S4x1x1x1.size a ≤ S4x1x1x1.size a
  h_S4x1x1x1 : 0 < S4x1x1x1.numel
  shapeCasts_S4x1x1x1_S4x1x1x1 : S4x1x1x1.ShapeCasts S4x1x1x1
  natLt_1_32 : 1 < 32
  broadcasts_S4x1x1x1_S4x1x512x512 : S4x1x1x1.Broadcasts S4x1x512x512
  reduces_S4x1x512x512_S4x1x512 : S4x1x512x512.Reduces [2] S4x1x512
  shapeCasts_S4x1x512_S4x1x1x512 : S4x1x512.ShapeCasts S4x1x1x512
  reduces_S4x1x1x512_S1x1x512 : S4x1x1x512.Reduces [0] S1x1x512
  shapeCasts_S1x1x512_S1x1x1x512 : S1x1x512.ShapeCasts S1x1x1x512
  shapeCasts_S1x1x1x512_S1x512 : S1x1x1x512.ShapeCasts S1x512
  reduces_S1x512_S1 : S1x512.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512x512.size a ≤ S32x1x512x512.size a
  hwx0_0 : ∀ i : grid0.Coords, EltTy.bits .f32 = 32 ∨ (Rect.block (s := S32x1x512x512) S4x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512x512.size a ≤ S32x1x512x512.size a
  hwx0_1 : ∀ i : grid0.Coords, EltTy.bits .f32 = 32 ∨ (Rect.block (s := S32x1x512x512) S4x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512x512.size a ≤ S32x1x512x512.size a
  hwx0_2 : ∀ i : grid0.Coords, EltTy.bits .f32 = 32 ∨ (Rect.block (s := S32x1x512x512) S4x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1x1.size a ≤ S32x1x1x1.size a
  hwx0_3 : ∀ i : grid0.Coords, EltTy.bits .f32 = 32 ∨ (Rect.block (s := S32x1x1x1) S4x1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

abbrev win0_0 : Pipeline.Window sig grid0 :=
  Pipeline.Window.ofSpec (Memref.whole main_arg0) S4x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S32 : Shape := ⟨1, ![32]⟩
abbrev S_ : Shape := ⟨0, ![]⟩
abbrev S32x1x1x1 : Shape := ⟨4, ![32, 1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32, .f32⟩
  | .hbm, ⟨2, _⟩ => ⟨S32x1x512x512, .f32⟩
  | .hbm, ⟨3, _⟩ => ⟨S32x1x512x512, .f32⟩
  | .hbm, ⟨4, _⟩ => ⟨S_, .f32⟩
  | .hbm, ⟨5, _⟩ => ⟨S32x1x512x512, .f32⟩
  | .hbm, ⟨6, _⟩ => ⟨S32x1x512x512, .i1⟩
  | .hbm, ⟨7, _⟩ => ⟨S_, .f32⟩
  | .hbm, ⟨8, _⟩ => ⟨S32x1x512x512, .f32⟩
  | .hbm, ⟨9, _⟩ => ⟨S32x1x512x512, .i1⟩
  | .hbm, ⟨10, _⟩ => ⟨S32x1x512x512, .i1⟩
  | .hbm, ⟨11, _⟩ => ⟨S32x1x1x1, .f32⟩
  | .hbm, ⟨12, _⟩ => ⟨S_, .f32⟩
  | .hbm, ⟨13, _⟩ => ⟨S32x1x512x512, .f32⟩
  | .hbm, ⟨14, _⟩ => ⟨S32x1x512x512, .f32⟩
  | .hbm, ⟨15, _⟩ => ⟨S32x1x512x512, .f32⟩
  | .hbm, ⟨16, _⟩ => ⟨S32x1x512x512, .f32⟩
  | .hbm, ⟨17, _⟩ => ⟨S32x1x512x512, .f32⟩
  | .hbm, ⟨18, _⟩ => ⟨S32x1x512x512, .f32⟩
  | .hbm, ⟨19, _⟩ => ⟨S32x1x512x512, .f32⟩
  | .hbm, ⟨20, _⟩ => ⟨S32x1x512x512, .f32⟩
  | .hbm, ⟨21, _⟩ => ⟨S32x1x512x512, .f32⟩
  | .hbm, ⟨22, _⟩ => ⟨S32x1x512x512, .f32⟩
  | .hbm, ⟨23, _⟩ => ⟨S32x1x512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32x1x512x512, .f32⟩
  | .hbm, ⟨29, _⟩ => ⟨S_, .f32⟩
  | .hbm, ⟨30, _⟩ => ⟨S_, .f32⟩
  | .hbm, ⟨31, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  bcast_S32_S32x1x1x1_0 : S32.BroadcastsInDim S32x1x1x1 (![0] : Fin 1 → Fin S32x1x1x1.rank)
  bcast_S32x1x1x1_S32x1x512x512_0_1_2_3 : S32x1x1x1.BroadcastsInDim S32x1x512x512 (![0, 1, 2, 3] : Fin 4 → Fin S32x1x512x512.rank)
  reducesTo_S32x1x512x512_S_d0_1_2_3 : S32x1x512x512.ReducesTo [0, 1, 2, 3] S_
  h_S_ : 0 < S_.numel

variable [Facts₀]

class Facts : Prop extends Facts₀ where

variable [Facts]
-- ==== Proof.Spec.lean ====
/-
  The masked mean loss, as one function of the argument arrays on the extended reals.

  For a logit x with label y the per-element loss is  max(x, 0) − x·y + log(1 + e^(−|x|)).  An element is kept where
  both masks exceed one half; the kept indicator is 1 or 0.  The result is

      (Σ over all elements of loss · kept) / max(Σ over all elements of kept, 1).

  The same number is reached by a different bracketing of the two sums: the batch of 32 images is cut into 8 groups
  of 4 consecutive images; group t contributes, at each of the 512 columns w, the sum over its 4 images and their 512
  rows (a "column row"); a core p adds the column rows of its groups 4p … 4p+3 one after the other onto zero, sums the
  512 columns, and the two cores' sums are added.  Addition on the extended reals is commutative and associative, so
  the two bracketings agree with no finiteness assumption (the regrouping itself is proved in a sibling module).
-/
import Idealize.ShloMosaic.PureOps.Ideal
import Idealize.ShloMosaic.PureOps.Ideal.Laws
import Idealize.ShloMosaic.Lib.ValueIdx

noncomputable section

open scoped BigOperators

namespace Cert.MaskedLoss

open Idealize.ShloMosaic Idealize.ShloMosaic.ValueIdx

/-- The words the two programs print for 0, 1/2 and 1, read as extended reals. -/
abbrev zeroW : EReal := Ideal.ofBits .f32 0x00000000#32
abbrev halfW : EReal := Ideal.ofBits .f32 0x3F000000#32
abbrev oneW : EReal := Ideal.ofBits .f32 0x3F800000#32

/-- The [32, 1, 512, 512] arrays' shape and the label vector's. -/
abbrev Arr : Shape := ⟨4, ![32, 1, 512, 512]⟩
abbrev Lab : Shape := ⟨1, ![32]⟩

/-- The kept indicator: 1 where both mask values exceed one half, else 0 (the conjunction's bit read as a number). -/
def kept (p n : EReal) : EReal :=
  (((IntOp.andi (Ideal.cmp .ogt p halfW) (Ideal.cmp .ogt n halfW)).toNat : ℝ) : EReal)

/-- The stable form of the logistic loss of logit `x` against label `y`: max(x, 0) − x·y + log(1 + e^(−|x|)). -/
def loss (x y : EReal) : EReal :=
  (max x zeroW - x * y) + Ideal.log1p (Ideal.exp (-(max x (-x))))

/-- The summand of the numerator at image `b`, row `h`, column `w`: the loss against the image's label, kept or not. -/
def lossAt (x0 : Arr.Idx → EReal) (x1 : Lab.Idx → EReal) (x2 x3 : Arr.Idx → EReal) (b : Fin 32) (h w : Fin 512) : EReal :=
  loss (x0 (ix4 b (0 : Fin 1) h w)) (x1 (ix1 b)) * kept (x2 (ix4 b (0 : Fin 1) h w)) (x3 (ix4 b (0 : Fin 1) h w))

/-- The summand of the denominator's count there. -/
def keptAt (x2 x3 : Arr.Idx → EReal) (b : Fin 32) (h w : Fin 512) : EReal :=
  kept (x2 (ix4 b (0 : Fin 1) h w)) (x3 (ix4 b (0 : Fin 1) h w))

/-- The sum of a summand over every image, row and column. -/
def total (f : Fin 32 → Fin 512 → Fin 512 → EReal) : EReal :=
  ∑ b : Fin 32, ∑ h : Fin 512, ∑ w : Fin 512, f b h w

/-- The quotient both programs end with: (0 + numerator) / max(0 + count, 1). -/
def quotient (num cnt : EReal) : EReal := Ideal.div (zeroW + num) (max (zeroW + cnt) oneW)

/-- THE RESULT: the masked mean loss of the four argument arrays. -/
def result (x0 : Arr.Idx → EReal) (x1 : Lab.Idx → EReal) (x2 x3 : Arr.Idx → EReal) : EReal :=
  quotient (total (lossAt x0 x1 x2 x3)) (total (keptAt x2 x3))

/-! ## The same sums, bracketed by groups of images, columns and cores -/

/-- Image `bb` of group `t`: images 4t … 4t+3. -/
def groupImage (t : Fin 8) (bb : Fin 4) : Fin 32 := ⟨bb.val + 4 * t.val, by have := t.isLt; have := bb.isLt; omega⟩

/-- Group `i` of core `p`: groups 4p … 4p+3. -/
def coreGroup (p : Fin 2) (i : Fin 4) : Fin 8 := ⟨i.val + 4 * p.val, by have := p.isLt; have := i.isLt; omega⟩

/-- Group `t`'s column row: at column `w`, the sum over the group's 4 images and their 512 rows. -/
def columnRow (f : Fin 32 → Fin 512 → Fin 512 → EReal) (t : Fin 8) (w : Fin 512) : EReal :=
  ∑ bb : Fin 4, ∑ h : Fin 512, f (groupImage t bb) h w

/-- The running column sums after group `n`: restarted from zero at the first group of a core (n ≡ 0 mod 4), else
    carried on from the group before. -/
def running (R : Fin 8 → Fin 512 → EReal) : (n : ℕ) → n < 8 → Fin 512 → EReal
  | 0, h => fun w => zeroW + R ⟨0, h⟩ w
  | n + 1, h => fun w => (if (n + 1) % 4 = 0 then zeroW else running R n (Nat.lt_of_succ_lt h) w) + R ⟨n + 1, h⟩ w

/-- Core `p`'s sum: the running column sums after its last group, summed over the 512 columns. -/
def coreSum (R : Fin 8 → Fin 512 → EReal) (p : Fin 2) : EReal :=
  ∑ w : Fin 512, running R (3 + 4 * p.val) (by have := p.isLt; omega) w

/-- The sum as the grid computes it: the two cores' sums added. -/
def gridTotal (f : Fin 32 → Fin 512 → Fin 512 → EReal) : EReal := ∑ p : Fin 2, coreSum (columnRow f) p

end Cert.MaskedLoss

end
-- ==== Proof.Pieces.lean ====
/-
  What one run of the kernel body leaves behind, case by case, as the body's own arithmetic.

  The body keeps two running vectors of 512 column sums (one for the loss, one for the count of kept elements). At the
  first group of a core it stores zeros and then adds the group's column row onto them; at the other groups it adds the
  group's column row onto what the group before left; at a core's last group it moreover stores, into each of the two
  output blocks, the sum of the 512 running column sums it has just stored, repeated along the block's 128 lanes. Each
  statement below says this of one buffer in one case, for any element type: the stored value is the body's arithmetic
  applied to the values the body loaded — a load of a buffer reads what the latest store that covers it wrote.
-/
import proofs.«121130_j15908558864773_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.MaskedLoss.Pieces

open Cert.KernelIdeal Cert.KernelIdeal.Gen

variable {F : FTy → Type} [FloatOps F]

/-- The all-zero offsets at which every load and store of the body starts, at ranks 2, 3 and 4. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords)
  (a2 : Memref sig .tc .vmem S4x1x512x512 .f32) (h2 : a2.IsWhole) (a3 : Memref sig .tc .vmem S4x1x512x512 .f32) (h3 : a3.IsWhole)
  (a4 : Memref sig .tc .vmem S4x1x512x512 .f32) (h4 : a4.IsWhole) (a5 : Memref sig .tc .vmem S4x1x1x1 .f32) (h5 : a5.IsWhole)
  (a6 : Memref sig .tc .vmem S1x1x128 .f32) (h6 : a6.IsWhole) (a7 : Memref sig .tc .vmem S1x1x128 .f32) (h7 : a7.IsWhole)
  (a8 : Memref sig .tc .vmem S1x512 .f32) (h8 : a8.IsWhole) (a9 : Memref sig .tc .vmem S1x512 .f32) (h9 : a9.IsWhole)
  (x0 x1 x2 : Vec F S4x1x512x512 .f32) (x3 : Vec F S4x1x1x1 .f32) (xs0 xs1 : Vec F S1x512 .f32)

/-! ## A group that is neither a core's first nor its last -/

/-- The loss's running column sums: what the group before left, plus this group's column row. -/
theorem mid_loss (hc0 : ¬cond0_0 i) (hc1 : ¬cond0_1 i) :
    sout0_B_0 c i a2 h2 a3 h3 a4 h4 a5 h5 a6 h6 a7 h7 a8 h8 a9 h9 hc0 hc1 x0 x1 x2 x3 xs0 xs1 = k0_pay1 xs0 (k0_pay8 x0 x3 x1 x2) := by
  unfold sout0_B_0
  rw [View.read_writes_eq_canon _ _ _ (scover0_B_0 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h8.read_unread, h9.read_unread,
    View.ld_unit_zero (S := S1x512) hz2, View.ld_unit_zero (S := S4x1x512x512) hz4, View.ld_unit_zero (S := S4x1x1x1) hz4]

/-- The count's running column sums likewise. -/
theorem mid_count (hc0 : ¬cond0_0 i) (hc1 : ¬cond0_1 i) :
    sout0_B_1 c i a2 h2 a3 h3 a4 h4 a5 h5 a6 h6 a7 h7 a8 h8 a9 h9 hc0 hc1 x0 x1 x2 x3 xs0 xs1 = k0_pay2 (k0_pay7 x1 x2) xs1 := by
  unfold sout0_B_1
  rw [View.read_writes_eq_canon _ _ _ (scover0_B_1 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h8.read_unread, h9.read_unread,
    View.ld_unit_zero (S := S1x512) hz2, View.ld_unit_zero (S := S4x1x512x512) hz4, View.ld_unit_zero (S := S4x1x1x1) hz4]

/-! ## A core's last group -/

/-- The loss's running column sums: as at a middle group. -/
theorem last_loss (hc0 : ¬cond0_0 i) (hc1 : cond0_1 i) :
    sout0_C_0 c i a2 h2 a3 h3 a4 h4 a5 h5 a6 h6 a7 h7 a8 h8 a9 h9 hc0 hc1 x0 x1 x2 x3 xs0 xs1 = k0_pay1 xs0 (k0_pay8 x0 x3 x1 x2) := by
  unfold sout0_C_0
  rw [View.read_writes_eq_canon _ _ _ (scover0_C_0 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h8.read_unread, h9.read_unread,
    View.ld_unit_zero (S := S1x512) hz2, View.ld_unit_zero (S := S4x1x512x512) hz4, View.ld_unit_zero (S := S4x1x1x1) hz4]

/-- The count's running column sums: as at a middle group. -/
theorem last_count (hc0 : ¬cond0_0 i) (hc1 : cond0_1 i) :
    sout0_C_1 c i a2 h2 a3 h3 a4 h4 a5 h5 a6 h6 a7 h7 a8 h8 a9 h9 hc0 hc1 x0 x1 x2 x3 xs0 xs1 = k0_pay2 (k0_pay7 x1 x2) xs1 := by
  unfold sout0_C_1
  rw [View.read_writes_eq_canon _ _ _ (scover0_C_1 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h8.read_unread, h9.read_unread,
    View.ld_unit_zero (S := S1x512) hz2, View.ld_unit_zero (S := S4x1x512x512) hz4, View.ld_unit_zero (S := S4x1x1x1) hz4]

/-- The loss's output block: the lane sum of the running column sums just stored, along the 128 lanes. -/
theorem last_loss_out (hc0 : ¬cond0_0 i) (hc1 : cond0_1 i) :
    out0_C_4 c i a2 h2 a3 h3 a4 h4 a5 h5 a6 h6 a7 h7 a8 h8 a9 h9 hc0 hc1 x0 x1 x2 x3 xs0 xs1 = k0_pay3 (k0_pay1 xs0 (k0_pay8 x0 x3 x1 x2)) := by
  unfold out0_C_4
  rw [View.read_writes_eq_canon _ _ _ (cover0_C_4 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz3]
  simp only [View.readAt_eq_ld, h2.read_unread, h3.read_unread, h4.read_unread, h5.read_unread, h8.read_unread, h9.read_unread,
    View.readCov_unit_zero (S := S1x512) _ hz2, View.canon_unit_zero (S := S1x512) hz2,
    View.ld_unit_zero (S := S1x512) hz2, View.ld_unit_zero (S := S4x1x512x512) hz4, View.ld_unit_zero (S := S4x1x1x1) hz4]

/-- The count's output block likewise. -/
theorem last_count_out (hc0 : ¬cond0_0 i) (hc1 : cond0_1 i) :
    out0_C_5 c i a2 h2 a3 h3 a4 h4 a5 h5 a6 h6 a7 h7 a8 h8 a9 h9 hc0 hc1 x0 x1 x2 x3 xs0 xs1 = k0_pay4 (k0_pay2 (k0_pay7 x1 x2) xs1) := by
  unfold out0_C_5
  rw [View.read_writes_eq_canon _ _ _ (cover0_C_5 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz3]
  simp only [View.readAt_eq_ld, h2.read_unread, h3.read_unread, h4.read_unread, h5.read_unread, h8.read_unread, h9.read_unread,
    View.readCov_unit_zero (S := S1x512) _ hz2, View.canon_unit_zero (S := S1x512) hz2,
    View.ld_unit_zero (S := S1x512) hz2, View.ld_unit_zero (S := S4x1x512x512) hz4, View.ld_unit_zero (S := S4x1x1x1) hz4]

/-! ## A core's first group -/

/-- The loss's running column sums: the zeros just stored, plus this group's column row. -/
theorem first_loss (hc0 : cond0_0 i) (hc1 : ¬cond0_1 i) :
    sout0_A_0 c i a2 h2 a3 h3 a4 h4 a5 h5 a6 h6 a7 h7 a8 h8 a9 h9 hc0 hc1 x0 x1 x2 x3 = k0_pay1 (k0_pay5 (F := F)) (k0_pay8 x0 x3 x1 x2) := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S1x512) hz2]
  simp only [View.readAt_eq_ld, h2.read_unread, h3.read_unread, h4.read_unread, h5.read_unread, h8.read_unread, h9.read_unread,
    View.readCov_unit_zero (S := S1x512) _ hz2, View.canon_unit_zero (S := S1x512) hz2,
    View.ld_unit_zero (S := S1x512) hz2, View.ld_unit_zero (S := S4x1x512x512) hz4, View.ld_unit_zero (S := S4x1x1x1) hz4]

/-- The count's running column sums likewise. -/
theorem first_count (hc0 : cond0_0 i) (hc1 : ¬cond0_1 i) :
    sout0_A_1 c i a2 h2 a3 h3 a4 h4 a5 h5 a6 h6 a7 h7 a8 h8 a9 h9 hc0 hc1 x0 x1 x2 x3 = k0_pay2 (k0_pay7 x1 x2) (k0_pay6 (F := F)) := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S1x512) hz2]
  simp only [View.readAt_eq_ld, h2.read_unread, h3.read_unread, h4.read_unread, h5.read_unread, h8.read_unread, h9.read_unread,
    View.readCov_unit_zero (S := S1x512) _ hz2, View.canon_unit_zero (S := S1x512) hz2,
    View.ld_unit_zero (S := S1x512) hz2, View.ld_unit_zero (S := S4x1x512x512) hz4, View.ld_unit_zero (S := S4x1x1x1) hz4]

end Cert.MaskedLoss.Pieces

end
-- ==== Proof.Blocks.lean ====
/-
  Where a grid point's blocks sit in the arrays.

  Grid point t (of 8) reads, of each of the three [32, 1, 512, 512] arrays, the block of images 4t … 4t+3 (all rows
  and columns), and of the labels, laid out as [32, 1, 1, 1], the same four images' labels. So an element (bb, 0, h, w)
  of a block is element (4t + bb, 0, h, w) of its array, and the label array's entry (b, 0, 0, 0) is label b: the
  host's reshape of the label vector keeps the row-major position, which for a [32] vector and a [32, 1, 1, 1] array
  is the image number on both sides.
-/
import proofs.«121130_j15908558864773_2_alg».proof.Proof.Gen.KernelIdeal.Frame
import proofs.«121130_j15908558864773_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.MaskedLoss.Blocks

open Cert.KernelIdeal Cert.KernelIdeal.Gen Cert.MaskedLoss

variable {F : FTy → Type} [FloatOps F]
variable (m : (ℓ : Loc nD τ sig) → Buf (Elt F) ℓ)

/-- A grid point as the number of the group of four images it reads. -/
def grp (t : Fin cfg0.N) : Fin 8 := ⟨t.val, lt_of_lt_of_eq t.isLt N_0⟩

@[simp] theorem grp_val (t : Fin cfg0.N) : (grp t).val = t.val := rfl

/-- The four input windows' block numbers at a point: the point's own number along the image axis, zero elsewhere. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem index2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)
theorem index3 : ∀ t : Fin cfg0.N, win0_3.index t 0 = t.val ∧ win0_3.index t 1 = 0 ∧ win0_3.index t 2 = 0 ∧ win0_3.index t 3 = 0 :=
  (by decide +kernel : ∀ t : Fin grid0.N, win0_3.index t 0 = t.val ∧ win0_3.index t 1 = 0 ∧ win0_3.index t 2 = 0 ∧ win0_3.index t 3 = 0)

/-- The logits' block at point `t`, at (bb, 0, h, w), is the logits at (4t + bb, 0, h, w). -/
theorem logits_block (c : Dev nD) (t : Fin cfg0.N) (bb : Fin 4) (h w : Fin 512) :
    (iblk m c 0 t : Vec F S4x1x512x512 .f32) (ix4 bb (0 : Fin 1) h w)
      = V m c main_arg0 (ix4 (groupImage (grp t) bb) (0 : Fin 1) h w) := by
  have hi := index0 t
  unfold iblk
  rw [View.read_apply]
  show V m c main_arg0 _ = V m c main_arg0 _
  refine congrArg (V m c main_arg0) ?_
  funext a
  apply Fin.ext
  match a with
  | ⟨0, _⟩ => show win0_0.index t 0 * 4 + 1 * bb.val = bb.val + 4 * t.val; rw [hi.1]; omega
  | ⟨1, _⟩ => show win0_0.index t 1 * 1 + 1 * 0 = 0; rw [hi.2.1]
  | ⟨2, _⟩ => show win0_0.index t 2 * 512 + 1 * h.val = h.val; rw [hi.2.2.1]; omega
  | ⟨3, _⟩ => show win0_0.index t 3 * 512 + 1 * w.val = w.val; rw [hi.2.2.2]; omega

/-- The first mask's block likewise. -/
theorem mask1_block (c : Dev nD) (t : Fin cfg0.N) (bb : Fin 4) (h w : Fin 512) :
    (iblk m c 1 t : Vec F S4x1x512x512 .f32) (ix4 bb (0 : Fin 1) h w)
      = V m c main_arg2 (ix4 (groupImage (grp t) bb) (0 : Fin 1) h w) := by
  have hi := index1 t
  unfold iblk
  rw [View.read_apply]
  show V m c main_arg2 _ = V m c main_arg2 _
  refine congrArg (V m c main_arg2) ?_
  funext a
  apply Fin.ext
  match a with
  | ⟨0, _⟩ => show win0_1.index t 0 * 4 + 1 * bb.val = bb.val + 4 * t.val; rw [hi.1]; omega
  | ⟨1, _⟩ => show win0_1.index t 1 * 1 + 1 * 0 = 0; rw [hi.2.1]
  | ⟨2, _⟩ => show win0_1.index t 2 * 512 + 1 * h.val = h.val; rw [hi.2.2.1]; omega
  | ⟨3, _⟩ => show win0_1.index t 3 * 512 + 1 * w.val = w.val; rw [hi.2.2.2]; omega

/-- The second mask's block likewise. -/
theorem mask2_block (c : Dev nD) (t : Fin cfg0.N) (bb : Fin 4) (h w : Fin 512) :
    (iblk m c 2 t : Vec F S4x1x512x512 .f32) (ix4 bb (0 : Fin 1) h w)
      = V m c main_arg3 (ix4 (groupImage (grp t) bb) (0 : Fin 1) h w) := by
  have hi := index2 t
  unfold iblk
  rw [View.read_apply]
  show V m c main_arg3 _ = V m c main_arg3 _
  refine congrArg (V m c main_arg3) ?_
  funext a
  apply Fin.ext
  match a with
  | ⟨0, _⟩ => show win0_2.index t 0 * 4 + 1 * bb.val = bb.val + 4 * t.val; rw [hi.1]; omega
  | ⟨1, _⟩ => show win0_2.index t 1 * 1 + 1 * 0 = 0; rw [hi.2.1]
  | ⟨2, _⟩ => show win0_2.index t 2 * 512 + 1 * h.val = h.val; rw [hi.2.2.1]; omega
  | ⟨3, _⟩ => show win0_2.index t 3 * 512 + 1 * w.val = w.val; rw [hi.2.2.2]; omega

/-- The labels' block at point `t`, at (bb, 0, 0, 0), is the label array at (4t + bb, 0, 0, 0). -/
theorem label_block (c : Dev nD) (t : Fin cfg0.N) (bb : Fin 4) :
    (iblk m c 3 t : Vec F S4x1x1x1 .f32) (ix4 bb (0 : Fin 1) (0 : Fin 1) (0 : Fin 1))
      = V m c main_v0 (ix4 (groupImage (grp t) bb) (0 : Fin 1) (0 : Fin 1) (0 : Fin 1)) := by
  have hi := index3 t
  unfold iblk
  rw [View.read_apply]
  show V m c main_v0 _ = V m c main_v0 _
  refine congrArg (V m c main_v0) ?_
  funext a
  apply Fin.ext
  match a with
  | ⟨0, _⟩ => show win0_3.index t 0 * 4 + 1 * bb.val = bb.val + 4 * t.val; rw [hi.1]; omega
  | ⟨1, _⟩ => show win0_3.index t 1 * 1 + 1 * 0 = 0; rw [hi.2.1]
  | ⟨2, _⟩ => show win0_3.index t 2 * 1 + 1 * 0 = 0; rw [hi.2.2.1]
  | ⟨3, _⟩ => show win0_3.index t 3 * 1 + 1 * 0 = 0; rw [hi.2.2.2]

/-- The label array the region finds is the host's reshape of the label vector … -/
theorem label_array (c : Dev nD) :
    (V m c main_v0 : S32x1x1x1.Idx → Elt F .f32)
      = shapeCast S32x1x1x1 (m ((c : Thread nD τ).loc main_arg1)) shapeCasts_S32_S32x1x1x1 := by
  show StableHlo.after hostOps0 (fun b => m (c, b)) (Proc.devRef .tc main_v0) = _
  after_results
  rfl

/-- … so its entry (b, 0, 0, 0) is label b. -/
theorem label_entry (c : Dev nD) (b : Fin 32) :
    V m c main_v0 (ix4 b (0 : Fin 1) (0 : Fin 1) (0 : Fin 1)) = m ((c : Thread nD τ).loc main_arg1) (ix1 b) := by
  have e := congrFun (label_array m c) (ix4 b (0 : Fin 1) (0 : Fin 1) (0 : Fin 1))
  refine e.trans ?_
  refine shapeCast_apply _ shapeCasts_S32_S32x1x1x1 (ix4 b (0 : Fin 1) (0 : Fin 1) (0 : Fin 1)) (ix1 b) ?_
  rw [Shape.rowMajor_val_one, Shape.rowMajor_val_four]
  show b.val = ((b.val * 1 + 0) * 1 + 0) * 1 + 0
  omega

end Cert.MaskedLoss.Blocks

end
-- ==== Proof.BodyValue.lean ====
/-
  The values the kernel body stores, read one index at a time on the extended reals.

  The body works on a block of 4 images of 512 rows by 512 columns: the logits x, the two masks, and one label per image.
  * The count summand at image bb, row h, column w is the kept indicator there: 1 where both masks exceed one half,
    else 0 (the conjunction's bit, widened to a word and converted, is the bit read as a number).
  * The loss summand there is  max(x, 0) − x·y + log(1 + e^(0 − |x|)),  times the indicator; 0 − |x| is −|x|.
  * The block's column row at column w is the sum of a summand over the 512 rows of each image and then over the
    4 images: two one-axis sums, the reshapes between them moving no element.
  * A running row after a block is the row before plus the block's column row, column by column; the rows start at 0.
  * A core's total is the sum of its running row over the 512 columns, the same number at each of the 128 lanes it is
    stored at.
-/
import proofs.«121130_j15908558864773_2_alg».proof.Proof.Gen.KernelIdeal.Skeleton
import proofs.«121130_j15908558864773_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.MaskedLoss.Body

open Cert.MaskedLoss Cert.KernelIdeal Cert.KernelIdeal.Gen Idealize.ShloMosaic Idealize.ShloMosaic.ValueIdx

/-! ## Reshapes and broadcasts that move no element, read at an index -/

section Layout
variable {α : Type}

/-- A [1, 1, c] row viewed as [1, 1, 1, c] reads the same column. -/
private theorem cast_11c_111c {c : ℕ} (x : (⟨3, ![1, 1, c]⟩ : Shape).Idx → α)
    (h : (⟨3, ![1, 1, c]⟩ : Shape).ShapeCasts ⟨4, ![1, 1, 1, c]⟩) (w : Fin c) :
    shapeCast ⟨4, ![1, 1, 1, c]⟩ x h (ix4 (0 : Fin 1) (0 : Fin 1) (0 : Fin 1) w) = x (ix3 (0 : Fin 1) (0 : Fin 1) w) :=
  shapeCast_apply x h _ _ (by
    rw [Shape.rowMajor_val_three, Shape.rowMajor_val_four]
    show (0 * 1 + 0) * c + w.val = ((0 * 1 + 0) * 1 + 0) * c + w.val
    rfl)

/-- A [1, 1, 1, c] row viewed as [1, c] reads the same column. -/
private theorem cast_111c_1c {c : ℕ} (x : (⟨4, ![1, 1, 1, c]⟩ : Shape).Idx → α)
    (h : (⟨4, ![1, 1, 1, c]⟩ : Shape).ShapeCasts ⟨2, ![1, c]⟩) (w : Fin c) :
    shapeCast ⟨2, ![1, c]⟩ x h (ix2 (0 : Fin 1) w) = x (ix4 (0 : Fin 1) (0 : Fin 1) (0 : Fin 1) w) :=
  shapeCast_apply x h _ _ (by
    rw [Shape.rowMajor_val_four, Shape.rowMajor_val_two]
    show ((0 * 1 + 0) * 1 + 0) * c + w.val = 0 * c + w.val
    rfl)

/-- An [n, 1, c] array viewed as [n, 1, 1, c] reads the same image and column. -/
private theorem cast_n1c_n11c {n c : ℕ} (x : (⟨3, ![n, 1, c]⟩ : Shape).Idx → α)
    (h : (⟨3, ![n, 1, c]⟩ : Shape).ShapeCasts ⟨4, ![n, 1, 1, c]⟩) (b : Fin n) (w : Fin c) :
    shapeCast ⟨4, ![n, 1, 1, c]⟩ x h (ix4 b (0 : Fin 1) (0 : Fin 1) w) = x (ix3 b (0 : Fin 1) w) :=
  shapeCast_apply x h _ _ (by
    rw [Shape.rowMajor_val_three, Shape.rowMajor_val_four]
    show (b.val * 1 + 0) * c + w.val = ((b.val * 1 + 0) * 1 + 0) * c + w.val
    simp)

/-- The one element of a [1, 1, 1] array broadcast along 128 lanes reads that element at every lane. -/
private theorem bcast_111_11l {l : ℕ} (x : (⟨3, ![1, 1, 1]⟩ : Shape).Idx → α)
    (h : (⟨3, ![1, 1, 1]⟩ : Shape).Broadcasts ⟨3, ![1, 1, l]⟩) (k : Fin l) :
    broadcastTo ⟨3, ![1, 1, l]⟩ x h (ix3 (0 : Fin 1) (0 : Fin 1) k) = x (ix3 (0 : Fin 1) (0 : Fin 1) (0 : Fin 1)) :=
  broadcastTo_apply x h _ _ fun a => by
    match a with
    | ⟨0, _⟩ => rfl
    | ⟨1, _⟩ => rfl
    | ⟨2, _⟩ => rfl

/-- One label per image broadcast over the image's rows and columns reads the image's label everywhere. -/
private theorem bcast_n111_n1hw {n r c : ℕ} (hr : r ≠ 1) (x : (⟨4, ![n, 1, 1, 1]⟩ : Shape).Idx → α)
    (h : (⟨4, ![n, 1, 1, 1]⟩ : Shape).Broadcasts ⟨4, ![n, 1, r, c]⟩) (b : Fin n) (i : Fin r) (j : Fin c) :
    broadcastTo ⟨4, ![n, 1, r, c]⟩ x h (ix4 b (0 : Fin 1) i j) = x (ix4 b (0 : Fin 1) (0 : Fin 1) (0 : Fin 1)) :=
  broadcastTo_apply x h _ _ fun a => by
    match a with
    | ⟨0, _⟩ =>
      show b.val = if n = 1 then 0 else b.val
      split
      · have := b.isLt; omega
      · rfl
    | ⟨1, _⟩ => rfl
    | ⟨2, _⟩ => rfl
    | ⟨3, _⟩ => rfl

end Layout

/-! ## The zero rows -/

/-- The first running row starts at the word 0 in every column. -/
theorem pay5_apply (w : Fin 512) : k0_pay5 (F := Ideal) (ix2 (0 : Fin 1) w) = zeroW := rfl

/-- So does the second. -/
theorem pay6_apply (w : Fin 512) : k0_pay6 (F := Ideal) (ix2 (0 : Fin 1) w) = zeroW := rfl

/-! ## A running row after a block -/

/-- The first running row after a block: the row before plus the block's column row, column by column. -/
theorem pay1_apply (acc : Vec Ideal S1x512 .f32) (v : FVec Ideal S1x1x512 .f32) (w : Fin 512) :
    k0_pay1 (F := Ideal) acc v (ix2 (0 : Fin 1) w) = acc (ix2 (0 : Fin 1) w) + v (ix3 (0 : Fin 1) (0 : Fin 1) w) := by
  unfold k0_pay1
  refine (congrFun (shapeCast_self _ _) _).trans ?_
  refine (addf_apply _ _ _).trans ?_
  refine congrArg (acc (ix2 (0 : Fin 1) w) + ·) ?_
  refine (cast_111c_1c _ _ w).trans ?_
  exact cast_11c_111c _ _ w

/-! ## A core's total -/

/-- The lane sum of a [1, 512] row, at its one index, is the sum over the 512 columns. -/
private theorem laneSum_apply (v : FVec Ideal S1x512 .f32) (h : S1x512.Reduces [1] S1) (hφ : FKind.Formats .f32)
    (hacc : (0x00000000#32 : BitVec 32) = FKind.add.neutral .f32 hφ) :
    multiReduction .add [1] S1 v 0x00000000#32 h hφ hacc (ix1 (0 : Fin 1)) = ∑ w : Fin 512, v (ix2 (0 : Fin 1) w) := by
  refine (Ideal.multiReduction_add_single v _ h hφ hacc _).trans ?_
  refine Finset.sum_congr rfl fun k _ => congrArg v ?_
  funext a
  match a with
  | ⟨0, _⟩ => exact Fin.ext rfl
  | ⟨1, _⟩ => exact Fin.ext rfl

/-- The one element of a [1] array viewed [1, 1], [1, 1, 1] and broadcast to [1, 1, 128] is read at every lane. -/
private theorem splat_apply (x : FVec Ideal S1 .f32) (h1 : S1.ShapeCasts S1x1) (h2 : S1x1.ShapeCasts S1x1x1)
    (h3 : S1x1x1.ShapeCasts S1x1x1) (h4 : S1x1x1.Broadcasts S1x1x128) (l : Fin 128) :
    broadcastTo S1x1x128 (shapeCast S1x1x1 (shapeCast S1x1x1 (shapeCast S1x1 x h1) h2) h3) h4 (ix3 (0 : Fin 1) (0 : Fin 1) l)
      = x (ix1 (0 : Fin 1)) := by
  refine (bcast_111_11l _ _ l).trans ?_
  refine (congrFun (shapeCast_self _ _) _).trans ?_
  refine (shapeCast_ab_1ab_apply _ _ (0 : Fin 1) (0 : Fin 1) (0 : Fin 1)).trans ?_
  exact shapeCast_a_1a_apply _ _ (0 : Fin 1) (0 : Fin 1)

/-- The first total stored: the sum of the first running row over the 512 columns, at each of the 128 lanes. -/
theorem pay3_apply (v : Vec Ideal S1x512 .f32) (l : Fin 128) :
    k0_pay3 (F := Ideal) v (ix3 (0 : Fin 1) (0 : Fin 1) l) = ∑ w : Fin 512, v (ix2 (0 : Fin 1) w) := by
  unfold k0_pay3
  refine (splat_apply _ _ _ _ _ l).trans ?_
  exact laneSum_apply v _ _ _

/-- The second total stored: the sum of the second running row over the 512 columns, at each of the 128 lanes. -/
theorem pay4_apply (v : Vec Ideal S1x512 .f32) (l : Fin 128) :
    k0_pay4 (F := Ideal) v (ix3 (0 : Fin 1) (0 : Fin 1) l) = ∑ w : Fin 512, v (ix2 (0 : Fin 1) w) := by
  unfold k0_pay4
  refine (splat_apply _ _ _ _ _ l).trans ?_
  exact laneSum_apply v _ _ _

/-! ## The kept indicator -/

/-- A one-bit word widened to 32 bits and read signed is the bit read as a number. -/
private theorem toInt_widen_bit : ∀ b : BitVec 1, (b.setWidth 32).toInt = (b.toNat : ℤ) := by decide

/-- The count summand of the block at image bb, row h, column w. -/
def blockKept (pm nm : Vec Ideal S4x1x512x512 .f32) (bb : Fin 4) (h w : Fin 512) : EReal :=
  kept (pm (ix4 bb (0 : Fin 1) h w)) (nm (ix4 bb (0 : Fin 1) h w))

/-- The loss summand of the block at image bb, row h, column w. -/
def blockLoss (x : Vec Ideal S4x1x512x512 .f32) (lab : Vec Ideal S4x1x1x1 .f32) (pm nm : Vec Ideal S4x1x512x512 .f32) (bb : Fin 4) (h w : Fin 512) : EReal :=
  loss (x (ix4 bb (0 : Fin 1) h w)) (lab (ix4 bb (0 : Fin 1) (0 : Fin 1) (0 : Fin 1))) * kept (pm (ix4 bb (0 : Fin 1) h w)) (nm (ix4 bb (0 : Fin 1) h w))

/-- The mask the body computes is the kept indicator at every index of the block. -/
private theorem pay7_at (pm nm : Vec Ideal S4x1x512x512 .f32) (j : S4x1x512x512.Idx) :
    k0_pay7 (F := Ideal) pm nm j = kept (pm j) (nm j) := by
  show ((((IntOp.andi (Ideal.cmp .ogt (pm j) halfW) (Ideal.cmp .ogt (nm j) halfW)).setWidth 32).toInt : ℝ) : EReal) = _
  rw [toInt_widen_bit]
  rfl

theorem pay7_apply (pm nm : Vec Ideal S4x1x512x512 .f32) (bb : Fin 4) (h w : Fin 512) :
    k0_pay7 (F := Ideal) pm nm (ix4 bb (0 : Fin 1) h w) = blockKept pm nm bb h w :=
  pay7_at pm nm _

/-! ## A block's column row -/

/-- The sum over the rows of a [4, 1, 512, 512] block, at image bb and column w. -/
private theorem rowSum_apply (src : FVec Ideal S4x1x512x512 .f32) (h : S4x1x512x512.Reduces [2] S4x1x512)
    (hφ : FKind.Formats .f32) (hacc : (0x00000000#32 : BitVec 32) = FKind.add.neutral .f32 hφ) (bb : Fin 4) (w : Fin 512) :
    multiReduction .add [2] S4x1x512 src 0x00000000#32 h hφ hacc (ix3 bb (0 : Fin 1) w)
      = ∑ r : Fin 512, src (ix4 bb (0 : Fin 1) r w) := by
  refine (Ideal.multiReduction_add_single src _ h hφ hacc _).trans ?_
  refine Finset.sum_congr rfl fun k _ => congrArg src ?_
  funext a
  match a with
  | ⟨0, _⟩ => exact Fin.ext rfl
  | ⟨1, _⟩ => exact Fin.ext rfl
  | ⟨2, _⟩ => exact Fin.ext rfl
  | ⟨3, _⟩ => exact Fin.ext rfl

/-- The sum over the 4 images of a [4, 1, 1, 512] array, at column w. -/
private theorem imageSum_apply (y : FVec Ideal S4x1x1x512 .f32) (h : S4x1x1x512.Reduces [0] S1x1x512)
    (hφ : FKind.Formats .f32) (hacc : (0x00000000#32 : BitVec 32) = FKind.add.neutral .f32 hφ) (w : Fin 512) :
    multiReduction .add [0] S1x1x512 y 0x00000000#32 h hφ hacc (ix3 (0 : Fin 1) (0 : Fin 1) w)
      = ∑ bb : Fin 4, y (ix4 bb (0 : Fin 1) (0 : Fin 1) w) := by
  refine (Ideal.multiReduction_add_single y _ h hφ hacc _).trans ?_
  refine Finset.sum_congr rfl fun k _ => congrArg y ?_
  funext a
  match a with
  | ⟨0, _⟩ => exact Fin.ext rfl
  | ⟨1, _⟩ => exact Fin.ext rfl
  | ⟨2, _⟩ => exact Fin.ext rfl
  | ⟨3, _⟩ => exact Fin.ext rfl

/-- The two sums one after the other: a block's column row at column w is the sum over its 4 images and their 512 rows. -/
private theorem columnRow_apply (src : FVec Ideal S4x1x512x512 .f32) (h1 : S4x1x512x512.Reduces [2] S4x1x512)
    (hφ1 : FKind.Formats .f32) (hacc1 : (0x00000000#32 : BitVec 32) = FKind.add.neutral .f32 hφ1)
    (hc : S4x1x512.ShapeCasts S4x1x1x512) (h2 : S4x1x1x512.Reduces [0] S1x1x512)
    (hφ2 : FKind.Formats .f32) (hacc2 : (0x00000000#32 : BitVec 32) = FKind.add.neutral .f32 hφ2) (w : Fin 512) :
    multiReduction .add [0] S1x1x512
        (shapeCast S4x1x1x512 (multiReduction .add [2] S4x1x512 src 0x00000000#32 h1 hφ1 hacc1) hc)
        0x00000000#32 h2 hφ2 hacc2 (ix3 (0 : Fin 1) (0 : Fin 1) w)
      = ∑ bb : Fin 4, ∑ r : Fin 512, src (ix4 bb (0 : Fin 1) r w) := by
  refine (imageSum_apply _ h2 hφ2 hacc2 w).trans ?_
  refine Finset.sum_congr rfl fun bb _ => ?_
  refine (cast_n1c_n11c _ hc bb w).trans ?_
  exact rowSum_apply src h1 hφ1 hacc1 bb w

/-- The second running row after a block: the row before plus the column row of the block's count summands. -/
theorem pay2_apply (v : FVec Ideal S4x1x512x512 .f32) (acc : Vec Ideal S1x512 .f32) (w : Fin 512) :
    k0_pay2 (F := Ideal) v acc (ix2 (0 : Fin 1) w) = acc (ix2 (0 : Fin 1) w) + ∑ bb : Fin 4, ∑ h : Fin 512, v (ix4 bb (0 : Fin 1) h w) := by
  unfold k0_pay2
  refine (congrFun (shapeCast_self _ _) _).trans ?_
  refine (addf_apply _ _ _).trans ?_
  refine congrArg (acc (ix2 (0 : Fin 1) w) + ·) ?_
  refine (cast_111c_1c _ _ w).trans ?_
  refine (cast_11c_111c _ _ w).trans ?_
  exact columnRow_apply v _ _ _ _ _ _ _ w

/-! ## The loss summand and its column row -/

/-- The word 0 less a value is the value negated. -/
private theorem zeroW_sub (a : EReal) : zeroW - a = -a := by
  rw [show zeroW = 0 from Ideal.ofBits_zero_f32, zero_sub]

/-- The block's column row of loss summands: at column w, the sum over the 4 images and their 512 rows of the loss
    against the image's label, kept or not. -/
theorem pay8_apply (x : Vec Ideal S4x1x512x512 .f32) (lab : Vec Ideal S4x1x1x1 .f32) (pm nm : Vec Ideal S4x1x512x512 .f32) (w : Fin 512) :
    k0_pay8 (F := Ideal) x lab pm nm (ix3 (0 : Fin 1) (0 : Fin 1) w) = ∑ bb : Fin 4, ∑ h : Fin 512, blockLoss x lab pm nm bb h w := by
  unfold k0_pay8
  refine (columnRow_apply _ _ _ _ _ _ _ _ w).trans ?_
  refine Finset.sum_congr rfl fun bb _ => Finset.sum_congr rfl fun r _ => ?_
  refine (mulf_apply _ _ _).trans ?_
  refine congrArg₂ (· * ·) ?_ (pay7_at pm nm _)
  have hb : broadcastTo S4x1x512x512 (shapeCast S4x1x1x1 lab Facts₀.shapeCasts_S4x1x1x1_S4x1x1x1)
      Facts₀.broadcasts_S4x1x1x1_S4x1x512x512 (ix4 bb (0 : Fin 1) r w)
        = lab (ix4 bb (0 : Fin 1) (0 : Fin 1) (0 : Fin 1)) :=
    (bcast_n111_n1hw (by decide) _ _ bb r w).trans (congrFun (shapeCast_self _ _) _)
  show (max (x (ix4 bb (0 : Fin 1) r w)) zeroW
          - x (ix4 bb (0 : Fin 1) r w)
            * broadcastTo S4x1x512x512 (shapeCast S4x1x1x1 lab Facts₀.shapeCasts_S4x1x1x1_S4x1x1x1)
                Facts₀.broadcasts_S4x1x1x1_S4x1x512x512 (ix4 bb (0 : Fin 1) r w))
        + Ideal.log1p (Ideal.exp (zeroW - max (x (ix4 bb (0 : Fin 1) r w)) (-(x (ix4 bb (0 : Fin 1) r w))))) = _
  rw [hb, zeroW_sub]
  rfl

end Cert.MaskedLoss.Body

end
-- ==== Proof.Accum.lean ====
/-
  What the two output arrays of the grid hold after the run: each core's sums of the loss and of the kept count.

  Point t of the grid (t = 0 … 7; core p = t / 4) adds its group's column rows to two running vectors of 512 column sums,
  which restart from zero at t ≡ 0 (mod 4). By induction on the point the running vectors after point t are the spec's
  `running` of the column rows of the argument arrays. At t ≡ 3 (mod 4) the body stores, into block t / 4 of each output
  array [2, 1, 128], the sum of the 512 running column sums, on every lane; these are the only points written back, and
  their two blocks tile each output array. So each output array ends holding core p's sum at (p, 0, lane).
-/
import proofs.«121130_j15908558864773_2_alg».proof.Proof.Gen.KernelIdeal.Frame
import proofs.«121130_j15908558864773_2_alg».proof.Proof.Spec
import proofs.«121130_j15908558864773_2_alg».proof.Proof.Pieces
import proofs.«121130_j15908558864773_2_alg».proof.Proof.Blocks
import proofs.«121130_j15908558864773_2_alg».proof.Proof.BodyValue
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.MaskedLoss.Kernel

open Cert.KernelIdeal Cert.KernelIdeal.Gen Cert.MaskedLoss Cert.MaskedLoss.Body Cert.MaskedLoss.Blocks

variable (m : (ℓ : Loc nD τ sig) → Buf (Elt Ideal) ℓ)

/-- The numerator's and the count's summands over the argument arrays as launched on core `c`. -/
def fLoss (c : Dev nD) : Fin 32 → Fin 512 → Fin 512 → EReal :=
  lossAt (m ((c : Thread nD τ).loc main_arg0)) (m ((c : Thread nD τ).loc main_arg1)) (m ((c : Thread nD τ).loc main_arg2)) (m ((c : Thread nD τ).loc main_arg3))
def fKept (c : Dev nD) : Fin 32 → Fin 512 → Fin 512 → EReal :=
  keptAt (m ((c : Thread nD τ).loc main_arg2)) (m ((c : Thread nD τ).loc main_arg3))

/-- The summands of point `t`'s blocks are the arrays' summands at the point's group of images. -/
theorem blockLoss_eq (c : Dev nD) (t : Fin cfg0.N) (bb : Fin 4) (h w : Fin 512) :
    blockLoss (iblk m c 0 t) (iblk m c 3 t) (iblk m c 1 t) (iblk m c 2 t) bb h w = fLoss m c (groupImage (grp t) bb) h w := by
  unfold blockLoss fLoss lossAt
  rw [logits_block m c t bb h w, label_block m c t bb, label_entry m c, mask1_block m c t bb h w, mask2_block m c t bb h w,
    V_main_arg0, V_main_arg2, V_main_arg3]

theorem blockKept_eq (c : Dev nD) (t : Fin cfg0.N) (bb : Fin 4) (h w : Fin 512) :
    blockKept (iblk m c 1 t) (iblk m c 2 t) bb h w = fKept m c (groupImage (grp t) bb) h w := by
  unfold blockKept fKept keptAt
  rw [mask1_block m c t bb h w, mask2_block m c t bb h w, V_main_arg2, V_main_arg3]

/-- What point `t` adds to the two running vectors at column `w`: its group's column rows. -/
theorem lossRow_eq (c : Dev nD) (t : Fin cfg0.N) (w : Fin 512) :
    k0_pay8 (F := Ideal) (iblk m c 0 t) (iblk m c 3 t) (iblk m c 1 t) (iblk m c 2 t) (ix3 (0 : Fin 1) (0 : Fin 1) w)
      = columnRow (fLoss m c) (grp t) w :=
  (pay8_apply _ _ _ _ w).trans (Finset.sum_congr rfl fun bb _ => Finset.sum_congr rfl fun h _ => blockLoss_eq m c t bb h w)

theorem keptRow_eq (c : Dev nD) (t : Fin cfg0.N) (w : Fin 512) :
    (∑ bb : Fin 4, ∑ h : Fin 512, k0_pay7 (F := Ideal) (iblk m c 1 t) (iblk m c 2 t) (ix4 bb (0 : Fin 1) h w))
      = columnRow (fKept m c) (grp t) w :=
  Finset.sum_congr rfl fun bb _ => Finset.sum_congr rfl fun h _ => (pay7_apply _ _ bb h w).trans (blockKept_eq m c t bb h w)

/-! ## One point's effect on the running vectors, case by case -/

/-- At a core's first group the running vectors restart: zero plus the group's column rows. -/
theorem step_first (c : Dev nD) (t : Fin cfg0.N) (h0 : t.val % 4 = 0) (h1 : ¬t.val % 4 = 3) (w : Fin 512) :
    (outsAt0 m c t.val t.isLt).2.2.1 (ix2 (0 : Fin 1) w) = zeroW + columnRow (fLoss m c) (grp t) w
    ∧ (outsAt0 m c t.val t.isLt).2.2.2 (ix2 (0 : Fin 1) w) = zeroW + columnRow (fKept m c) (grp t) w := by
  rw [outsAt0_A m c t h0 h1]
  dsimp only
  constructor
  · refine (congrFun (Pieces.first_loss (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) _ _) (ix2 (0 : Fin 1) w)).trans ?_
    refine (pay1_apply _ _ w).trans ?_
    rw [pay5_apply, lossRow_eq]
  · refine (congrFun (Pieces.first_count (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) _ _) (ix2 (0 : Fin 1) w)).trans ?_
    refine (pay2_apply _ _ w).trans ?_
    rw [pay6_apply, keptRow_eq]

/-- At any later group they carry on from what the group before left. -/
theorem step_next (c : Dev nD) (t : Fin cfg0.N) (h0 : ¬t.val % 4 = 0) (w : Fin 512) :
    (outsAt0 m c t.val t.isLt).2.2.1 (ix2 (0 : Fin 1) w)
        = (outsAt0 m c (t.val - 1) (Nat.lt_of_le_of_lt (Nat.sub_le _ _) t.isLt)).2.2.1 (ix2 (0 : Fin 1) w) + columnRow (fLoss m c) (grp t) w
    ∧ (outsAt0 m c t.val t.isLt).2.2.2 (ix2 (0 : Fin 1) w)
        = (outsAt0 m c (t.val - 1) (Nat.lt_of_le_of_lt (Nat.sub_le _ _) t.isLt)).2.2.2 (ix2 (0 : Fin 1) w) + columnRow (fKept m c) (grp t) w := by
  by_cases h1 : t.val % 4 = 3
  · rw [outsAt0_C m c t h0 h1]
    dsimp only
    constructor
    · refine (congrFun (Pieces.last_loss (F := Ideal) c (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) scM0_1 (Memref.isWhole_whole _)
        (iblk m c 0 t) (iblk m c 1 t) (iblk m c 2 t) (iblk m c 3 t) _ _ _ _) (ix2 (0 : Fin 1) w)).trans ?_
      refine (pay1_apply _ _ w).trans ?_
      rw [lossRow_eq]
    · refine (congrFun (Pieces.last_count (F := Ideal) c (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) scM0_1 (Memref.isWhole_whole _)
        (iblk m c 0 t) (iblk m c 1 t) (iblk m c 2 t) (iblk m c 3 t) _ _ _ _) (ix2 (0 : Fin 1) w)).trans ?_
      refine (pay2_apply _ _ w).trans ?_
      rw [keptRow_eq]
  · rw [outsAt0_B m c t h0 h1]
    dsimp only
    constructor
    · refine (congrFun (Pieces.mid_loss (F := Ideal) c (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) scM0_1 (Memref.isWhole_whole _)
        (iblk m c 0 t) (iblk m c 1 t) (iblk m c 2 t) (iblk m c 3 t) _ _ _ _) (ix2 (0 : Fin 1) w)).trans ?_
      refine (pay1_apply _ _ w).trans ?_
      rw [lossRow_eq]
    · refine (congrFun (Pieces.mid_count (F := Ideal) c (grid0.coords t) (ms0_0 t) (hs0_0 t) (ms0_1 t) (hs0_1 t) (ms0_2 t) (hs0_2 t)
        (ms0_3 t) (hs0_3 t) (ms0_4 t) (hs0_4 t) (ms0_5 t) (hs0_5 t) scM0_0 (Memref.isWhole_whole _) scM0_1 (Memref.isWhole_whole _)
        (iblk m c 0 t) (iblk m c 1 t) (iblk m c 2 t) (iblk m c 3 t) _ _ _ _) (ix2 (0 : Fin 1) w)).trans ?_
      refine (pay2_apply _ _ w).trans ?_
      rw [keptRow_eq]

/-- At a core's last group each output block holds, on every lane, the sum of the running column sums just stored. -/
theorem step_last_out (c : Dev nD) (t : Fin cfg0.N) (h0 : ¬t.val % 4 = 0) (h1 : t.val % 4 = 3) (l : Fin 128) :
    (outsAt0 m c t.val t.isLt).1 (ix3 (0 : Fin 1) (0 : Fin 1) l) = ∑ w : Fin 512, (outsAt0 m c t.val t.isLt).2.2.1 (ix2 (0 : Fin 1) w)
    ∧ (outsAt0 m c t.val t.isLt).2.1 (ix3 (0 : Fin 1) (0 : Fin 1) l) = ∑ w : Fin 512, (outsAt0 m c t.val t.isLt).2.2.2 (ix2 (0 : Fin 1) w) := by
  rw [outsAt0_C m c t h0 h1]
  dsimp only
  constructor
  · refine (congrFun (Pieces.last_loss_out (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) _ _ _ _) (ix3 (0 : Fin 1) (0 : Fin 1) l)).trans ?_
    refine (pay3_apply _ l).trans ?_
    refine Finset.sum_congr rfl fun w _ => ?_
    exact (congrFun (Pieces.last_loss (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) _ _ _ _) (ix2 (0 : Fin 1) w)).symm
  · refine (congrFun (Pieces.last_count_out (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) _ _ _ _) (ix3 (0 : Fin 1) (0 : Fin 1) l)).trans ?_
    refine (pay4_apply _ l).trans ?_
    refine Finset.sum_congr rfl fun w _ => ?_
    exact (congrFun (Pieces.last_count (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) scM0_1 (Memref.isWhole_whole _)
      (iblk m c 0 t) (iblk m c 1 t) (iblk m c 2 t) (iblk m c 3 t) _ _ _ _) (ix2 (0 : Fin 1) w)).symm

/-! ## The running vectors after every point -/

theorem running_succ (R : Fin 8 → Fin 512 → EReal) (n : ℕ) (h : n + 1 < 8) (w : Fin 512) :
    running R (n + 1) h w = (if (n + 1) % 4 = 0 then zeroW else running R n (Nat.lt_of_succ_lt h) w) + R ⟨n + 1, h⟩ w := rfl

theorem running_congr (R : Fin 8 → Fin 512 → EReal) {n n' : ℕ} (e : n = n') (h : n < 8) (h' : n' < 8) (w : Fin 512) :
    running R n h w = running R n' h' w := by subst e; rfl

/-- By induction on the point: the two running vectors after point `n` are the spec's running column sums. -/
theorem running_eq (c : Dev nD) : ∀ (n : ℕ) (hn : n < cfg0.N) (w : Fin 512),
    (outsAt0 m c n hn).2.2.1 (ix2 (0 : Fin 1) w) = running (columnRow (fLoss m c)) n (lt_of_lt_of_eq hn N_0) w
    ∧ (outsAt0 m c n hn).2.2.2 (ix2 (0 : Fin 1) w) = running (columnRow (fKept m c)) n (lt_of_lt_of_eq hn N_0) w
  | 0, hn, w => step_first m c ⟨0, hn⟩ rfl (by show ¬ 0 % 4 = 3; decide) w
  | n + 1, hn, w => by
    have ih := running_eq c n (Nat.lt_of_succ_lt hn) w
    rw [running_succ, running_succ]
    by_cases h0 : (n + 1) % 4 = 0
    · rw [if_pos h0, if_pos h0]
      exact step_first m c ⟨n + 1, hn⟩ h0 (by show ¬ (n + 1) % 4 = 3; omega) w
    · rw [if_neg h0, if_neg h0]
      have s := step_next m c ⟨n + 1, hn⟩ h0 w
      have s1 : (outsAt0 m c (n + 1) hn).2.2.1 (ix2 (0 : Fin 1) w)
          = (outsAt0 m c n (Nat.lt_of_succ_lt hn)).2.2.1 (ix2 (0 : Fin 1) w) + columnRow (fLoss m c) (grp ⟨n + 1, hn⟩) w := s.1
      have s2 : (outsAt0 m c (n + 1) hn).2.2.2 (ix2 (0 : Fin 1) w)
          = (outsAt0 m c n (Nat.lt_of_succ_lt hn)).2.2.2 (ix2 (0 : Fin 1) w) + columnRow (fKept m c) (grp ⟨n + 1, hn⟩) w := s.2
      rw [ih.1] at s1
      rw [ih.2] at s2
      exact ⟨s1, s2⟩

/-- So at a core's last group the output blocks hold the sums of the running column sums. -/
theorem out_eq (c : Dev nD) (t : Fin cfg0.N) (h1 : t.val % 4 = 3) (l : Fin 128) :
    (outsAt0 m c t.val t.isLt).1 (ix3 (0 : Fin 1) (0 : Fin 1) l) = ∑ w : Fin 512, running (columnRow (fLoss m c)) t.val (lt_of_lt_of_eq t.isLt N_0) w
    ∧ (outsAt0 m c t.val t.isLt).2.1 (ix3 (0 : Fin 1) (0 : Fin 1) l) = ∑ w : Fin 512, running (columnRow (fKept m c)) t.val (lt_of_lt_of_eq t.isLt N_0) w := by
  have h0 : ¬t.val % 4 = 0 := by omega
  have s := step_last_out m c t h0 h1 l
  exact ⟨s.1.trans (Finset.sum_congr rfl fun w _ => (running_eq m c t.val t.isLt w).1),
    s.2.trans (Finset.sum_congr rfl fun w _ => (running_eq m c t.val t.isLt w).2)⟩

/-! ## The two output arrays -/

/-- An output array's contents: core `p`'s sum at (p, 0, lane), for every lane. -/
def coreSums (R : Fin 8 → Fin 512 → EReal) : S2x1x128.Idx → EReal := fun j => coreSum R ⟨(j 0).val, (j 0).isLt⟩

/-- An index of an output block is (0, 0, lane). -/
theorem lane_idx (j : S1x1x128.Idx) : j = ix3 (0 : Fin 1) (0 : Fin 1) (⟨(j 2).val, (j 2).isLt⟩ : Fin 128) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- The output windows' block numbers at a point: the point's core along the first axis, zero elsewhere. -/
theorem index4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem index5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)

/-- What a written-back point writes into the loss's output array is its block of the cores' sums. -/
theorem loss_flushed (c : Dev nD) (t : Fin cfg0.N) (hf : (cfg0.win 4).flush t = true) :
    (dats m 0 c).flushed 4 t = ((cfg0.win 4).blk t).view.read (Elt Ideal) (coreSums (columnRow (fLoss m c))) := by
  have h3 : t.val % 4 = 3 := (flush0_4 t).mp hf
  have hN : t.val < 8 := lt_of_lt_of_eq t.isLt N_0
  show (cfg0.win 4).cut (grid0.coords t) ((dats m 0 c).after 4 t) = _
  rw [after0_4]
  funext j
  obtain ⟨l, rfl⟩ : ∃ l : Fin 128, j = ix3 (0 : Fin 1) (0 : Fin 1) l := ⟨_, lane_idx j⟩
  rw [View.read_apply]
  show (outsAt0 m c t.val t.isLt).1 (ix3 (0 : Fin 1) (0 : Fin 1) l) = coreSums _ (((cfg0.win 4).blk t).view.emb (ix3 (0 : Fin 1) (0 : Fin 1) l))
  rw [(out_eq m c t h3 l).1]
  unfold coreSums coreSum
  refine Finset.sum_congr rfl fun w _ => running_congr _ ?_ _ _ w
  show t.val = 3 + 4 * (win0_4.index t 0 * 1 + 1 * 0)
  rw [(index4 t).1]
  omega

theorem kept_flushed (c : Dev nD) (t : Fin cfg0.N) (hf : (cfg0.win 5).flush t = true) :
    (dats m 0 c).flushed 5 t = ((cfg0.win 5).blk t).view.read (Elt Ideal) (coreSums (columnRow (fKept m c))) := by
  have h3 : t.val % 4 = 3 := (flush0_5 t).mp hf
  have hN : t.val < 8 := lt_of_lt_of_eq t.isLt N_0
  show (cfg0.win 5).cut (grid0.coords t) ((dats m 0 c).after 5 t) = _
  rw [after0_5]
  funext j
  obtain ⟨l, rfl⟩ : ∃ l : Fin 128, j = ix3 (0 : Fin 1) (0 : Fin 1) l := ⟨_, lane_idx j⟩
  rw [View.read_apply]
  show (outsAt0 m c t.val t.isLt).2.1 (ix3 (0 : Fin 1) (0 : Fin 1) l) = coreSums _ (((cfg0.win 5).blk t).view.emb (ix3 (0 : Fin 1) (0 : Fin 1) l))
  rw [(out_eq m c t h3 l).2]
  unfold coreSums coreSum
  refine Finset.sum_congr rfl fun w _ => running_congr _ ?_ _ _ w
  show t.val = 3 + 4 * (win0_5.index t 0 * 1 + 1 * 0)
  rw [(index5 t).1]
  omega

/-- An index of an output array is in point `t`'s block iff each coordinate is in the block's range on its axis. -/
theorem mem_blk4 (t : Fin cfg0.N) (i : S2x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v1_0).slice (win0_4.rect t)).set ↔ _
  rw [View.set_slice_whole, Rect.mem_set_unit]
  exact Iff.rfl
theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v1_1).slice (win0_5.rect t)).set ↔ _
  rw [View.set_slice_whole, Rect.mem_set_unit]
  exact Iff.rfl

/-- Entry (p, 0, lane) of an output array lies in the block written back at core `p`'s last point, 4p + 3. -/
theorem loss_cover (i : S2x1x128.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 128 := (i 2).isLt
  have hlt : 4 * (i 0).val + 3 < cfg0.N := by rw [show cfg0.N = 8 from N_0]; omega
  refine ⟨⟨4 * (i 0).val + 3, hlt⟩, (flush0_4 _).mpr (by show (4 * (i 0).val + 3) % 4 = 3; omega), ?_⟩
  rw [mem_blk4]
  obtain ⟨e0, e1, e2⟩ := index4 ⟨4 * (i 0).val + 3, hlt⟩
  have e0' : win0_4.index ⟨4 * (i 0).val + 3, hlt⟩ 0 = (4 * (i 0).val + 3) / 4 := e0
  intro a
  match a with
  | ⟨0, _⟩ => show win0_4.index ⟨4 * (i 0).val + 3, hlt⟩ 0 * 1 ≤ (i 0).val ∧ (i 0).val < win0_4.index ⟨4 * (i 0).val + 3, hlt⟩ 0 * 1 + 1; rw [e0']; omega
  | ⟨1, _⟩ => show win0_4.index ⟨4 * (i 0).val + 3, hlt⟩ 1 * 1 ≤ (i 1).val ∧ (i 1).val < win0_4.index ⟨4 * (i 0).val + 3, hlt⟩ 1 * 1 + 1; rw [e1]; omega
  | ⟨2, _⟩ => show win0_4.index ⟨4 * (i 0).val + 3, hlt⟩ 2 * 128 ≤ (i 2).val ∧ (i 2).val < win0_4.index ⟨4 * (i 0).val + 3, hlt⟩ 2 * 128 + 128; rw [e2]; omega

theorem kept_cover (i : S2x1x128.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 128 := (i 2).isLt
  have hlt : 4 * (i 0).val + 3 < cfg0.N := by rw [show cfg0.N = 8 from N_0]; omega
  refine ⟨⟨4 * (i 0).val + 3, hlt⟩, (flush0_5 _).mpr (by show (4 * (i 0).val + 3) % 4 = 3; omega), ?_⟩
  rw [mem_blk5]
  obtain ⟨e0, e1, e2⟩ := index5 ⟨4 * (i 0).val + 3, hlt⟩
  have e0' : win0_5.index ⟨4 * (i 0).val + 3, hlt⟩ 0 = (4 * (i 0).val + 3) / 4 := e0
  intro a
  match a with
  | ⟨0, _⟩ => show win0_5.index ⟨4 * (i 0).val + 3, hlt⟩ 0 * 1 ≤ (i 0).val ∧ (i 0).val < win0_5.index ⟨4 * (i 0).val + 3, hlt⟩ 0 * 1 + 1; rw [e0']; omega
  | ⟨1, _⟩ => show win0_5.index ⟨4 * (i 0).val + 3, hlt⟩ 1 * 1 ≤ (i 1).val ∧ (i 1).val < win0_5.index ⟨4 * (i 0).val + 3, hlt⟩ 1 * 1 + 1; rw [e1]; omega
  | ⟨2, _⟩ => show win0_5.index ⟨4 * (i 0).val + 3, hlt⟩ 2 * 128 ≤ (i 2).val ∧ (i 2).val < win0_5.index ⟨4 * (i 0).val + 3, hlt⟩ 2 * 128 + 128; rw [e2]; omega

/-- THE OUTPUT ARRAYS AFTER THE RUN: the cores' sums of the loss, and of the kept count. -/
theorem loss_final (c : Dev nD) : (dats m 0 c).arrAt 4 cfg0.N = coreSums (columnRow (fLoss m c)) :=
  (dats m 0 c).arrAt_eq_of_cover 4 (coreSums (columnRow (fLoss m c))) (loss_flushed m c) loss_cover
theorem kept_final (c : Dev nD) : (dats m 0 c).arrAt 5 cfg0.N = coreSums (columnRow (fKept m c)) :=
  (dats m 0 c).arrAt_eq_of_cover 5 (coreSums (columnRow (fKept m c))) (kept_flushed m c) kept_cover

end Cert.MaskedLoss.Kernel

end
-- ==== Proof.Tail.lean ====
/-
  The kernel program's result: the host lines after the grid, applied to the two output arrays.

  After the grid the program takes entry (p, 0, 0) of each [2, 1, 128] output array for the two cores p, adds the two
  entries onto zero (once for the loss sums, once for the counts), and divides the first total by the larger of the
  second total and one. With the output arrays holding each core's sum on every lane, the two totals are the grid's
  bracketing of the numerator and of the count, which regrouped are the plain sums over all elements: the program's
  result is the masked mean loss of its arguments.
-/
import proofs.«121130_j15908558864773_2_alg».proof.Proof.Accum
import Idealize.ShloMosaic.Lib.Pipeline.Value
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.MaskedLoss.Kernel

open Cert.KernelIdeal Cert.KernelIdeal.Gen Cert.MaskedLoss Cert.MaskedLoss.Body Cert.MaskedLoss.Blocks

variable (m : (ℓ : Loc nD τ sig) → Buf (Elt Ideal) ℓ) (ρ : Dev nD → PrngReg)

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The host lines after the grid, as one function of the two output arrays: entries (p, 0, 0) sliced out, laid out as
    a vector of two, summed from zero; the first sum divided by the larger of the second and one. -/
def tail (a b : S2x1x128.Idx → EReal) : S_.Idx → EReal :=
  Host.divf (F := Ideal)
    (Host.reduceAdd (F := Ideal) (shapeCast S2 (extractStridedSlice S2x1x1 ![0, 0, 0] a slices_S2x1x128_S2x1x1_0_0_0) shapeCasts_S2x1x1_S2)
      (constant (F := Ideal) S_ .f32 0x00000000#32) reducesTo_S2_S_d0 h_S_)
    (maximumf
      (Host.reduceAdd (F := Ideal) (shapeCast S2 (extractStridedSlice S2x1x1 ![0, 0, 0] b slices_S2x1x128_S2x1x1_0_0_0) shapeCasts_S2x1x1_S2)
        (constant (F := Ideal) S_ .f32 0x00000000#32) reducesTo_S2_S_d0 h_S_)
      (constant (F := Ideal) S_ .f32 0x3F800000#32))

/-- Summing the sliced entries of an array of cores' sums from zero gives zero plus the two cores' sums. -/
theorem reduce_cores (R : Fin 8 → Fin 512 → EReal) (i : S_.Idx) :
    Host.reduceAdd (F := Ideal) (shapeCast S2 (extractStridedSlice S2x1x1 ![0, 0, 0] (coreSums R) slices_S2x1x128_S2x1x1_0_0_0) shapeCasts_S2x1x1_S2)
      (constant (F := Ideal) S_ .f32 0x00000000#32) reducesTo_S2_S_d0 h_S_ i
      = zeroW + ∑ p : Fin 2, coreSum R p := by
  simp only [Host.reduceAdd, Ideal.hostReduceAdd_def]
  refine (Ideal.hostReduceAdd_total reducesTo_S2_S_d0 (fun b => b.elim0) _ _ i).trans ?_
  refine congrArg₂ (· + ·) rfl ?_
  refine (sum_idx1 _).trans (Finset.sum_congr rfl fun p _ => ?_)
  refine (shapeCast_apply _ shapeCasts_S2x1x1_S2 (ix1 p) (ix3 p (0 : Fin 1) (0 : Fin 1)) ?_).trans ?_
  · rw [Shape.rowMajor_val_three, Shape.rowMajor_val_one]
    show (p.val * 1 + 0) * 1 + 0 = p.val
    omega
  refine (extractStridedSlice_apply _ _ slices_S2x1x128_S2x1x1_0_0_0 (ix3 p (0 : Fin 1) (0 : Fin 1)) (ix3 p (0 : Fin 1) (0 : Fin 128)) ?_).trans ?_
  · intro a
    match a with
    | ⟨0, _⟩ => show p.val = 0 + p.val; omega
    | ⟨1, _⟩ => rfl
    | ⟨2, _⟩ => rfl
  rfl

/-- The tail of two arrays of cores' sums is the quotient of the two grid totals. -/
theorem tail_coreSums (R R' : Fin 8 → Fin 512 → EReal) :
    tail (coreSums R) (coreSums R') = fun _ => quotient (∑ p : Fin 2, coreSum R p) (∑ p : Fin 2, coreSum R' p) := by
  funext i
  unfold tail quotient
  show FloatOps.hostDivf (Host.reduceAdd (F := Ideal) _ _ reducesTo_S2_S_d0 h_S_ i)
    (FloatOps.maximumf (Host.reduceAdd (F := Ideal) _ _ reducesTo_S2_S_d0 h_S_ i) (Ideal.ofBits .f32 0x3F800000#32)) = _
  rw [reduce_cores, reduce_cores]
  rfl

/-- THE PROGRAM'S RESULT, as the run states it: the quotient of the grid's two totals of the argument arrays. -/
theorem tail_value (c : Dev nD) :
    Pipeline.afterTail₀ cfgs (dats m) 0 (V0 m) [hostOps1] c main_v9
      = fun _ => quotient (gridTotal (fLoss m c)) (gridTotal (fKept m c)) := by
  have e4 : Pipeline.withArrays (cfgs 0).spec c (V0 m c) (fun w => (dats m 0 c).arrAt w (cfgs 0).N) (Proc.devRef .tc main_v1_0)
      = coreSums (columnRow (fLoss m c)) :=
    (Pipeline.withArrays_arr spec0 launch0.win.arr_inj c _ _ 4).trans (loss_final m c)
  have e5 : Pipeline.withArrays (cfgs 0).spec c (V0 m c) (fun w => (dats m 0 c).arrAt w (cfgs 0).N) (Proc.devRef .tc main_v1_1)
      = coreSums (columnRow (fKept m c)) :=
    (Pipeline.withArrays_arr spec0 launch0.win.arr_inj c _ _ 5).trans (kept_final m c)
  unfold Pipeline.afterTail₀
  show StableHlo.after hostOps1 _ (Proc.devRef .tc main_v9) = _
  after_results
  show tail (Pipeline.withArrays (cfgs 0).spec c (V0 m c) (fun w => (dats m 0 c).arrAt w (cfgs 0).N) (Proc.devRef .tc main_v1_0))
    (Pipeline.withArrays (cfgs 0).spec c (V0 m c) (fun w => (dats m 0 c).arrAt w (cfgs 0).N) (Proc.devRef .tc main_v1_1)) = _
  rw [e4, e5]
  exact tail_coreSums _ _

end Cert.MaskedLoss.Kernel

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.Regroup.lean ====
/-
  The grid's bracketing of a sum over 32 images, 512 rows and 512 columns is the plain triple sum.

  The 32 images are cut into 2 cores of 4 groups of 4 consecutive images; a core adds its groups' column rows one after
  the other onto zero, sums the 512 columns, and the two cores' sums are added.  Every step is a reordering or a
  rebracketing of one finite sum, and addition on the extended reals is commutative and associative with neutral
  element 0, so the two bracketings agree for every family of summands, finite or not.
-/
import proofs.«121130_j15908558864773_2_alg».proof.Proof.Spec
import proofs.«121130_j15908558864773_2_alg».proof.Proof.LibSumBlocks

noncomputable section

open scoped BigOperators

namespace Cert.MaskedLoss

open Idealize.ShloMosaic

/-- The word printed for 0 is the extended real 0. -/
private theorem zeroW_eq : zeroW = 0 := Ideal.ofBits_zero_f32

/-- After a core's last group the running column sums are the sum of the core's four column rows. -/
theorem running_last (R : Fin 8 → Fin 512 → EReal) (p : Fin 2) (w : Fin 512) :
    running R (3 + 4 * p.val) (by have := p.isLt; omega) w = ∑ i : Fin 4, R (coreGroup p i) w := by
  rw [Fin.sum_univ_four]
  obtain ⟨_ | _ | _, hp⟩ := p
  · -- core 0: groups 0, 1, 2, 3, started from zero at group 0
    show (((zeroW + R ⟨0, _⟩ w) + R ⟨1, _⟩ w) + R ⟨2, _⟩ w) + R ⟨3, _⟩ w = _
    rw [zeroW_eq, zero_add]
    rfl
  · -- core 1: groups 4, 5, 6, 7, restarted from zero at group 4
    show (((zeroW + R ⟨4, _⟩ w) + R ⟨5, _⟩ w) + R ⟨6, _⟩ w) + R ⟨7, _⟩ w = _
    rw [zeroW_eq, zero_add]
    rfl
  · omega

/-- A sum over the 32 images, taken core by core, group by group and image by image. -/
private theorem sum_images {M : Type*} [AddCommMonoid M] (g : Fin 32 → M) :
    ∑ b : Fin 32, g b = ∑ p : Fin 2, ∑ i : Fin 4, ∑ bb : Fin 4, g (groupImage (coreGroup p i) bb) := by
  -- 32 = 8 · 4: image bb of group t is image bb + 4 t
  have h1 : ∑ b : Fin 32, g b = ∑ t : Fin 8, ∑ bb : Fin 4, g (groupImage t bb) := by
    refine (Cert.SumBlocks.sum_blocks 8 4 g).trans ?_
    refine Finset.sum_congr rfl fun t _ => Finset.sum_congr rfl fun bb _ => ?_
    exact congrArg g (Fin.ext (Cert.SumBlocks.block_pos 8 4 t bb))
  -- 8 = 2 · 4: group i of core p is group i + 4 p
  have h2 : ∀ G : Fin 8 → M, ∑ t : Fin 8, G t = ∑ p : Fin 2, ∑ i : Fin 4, G (coreGroup p i) := by
    intro G
    refine (Cert.SumBlocks.sum_blocks 2 4 G).trans ?_
    refine Finset.sum_congr rfl fun p _ => Finset.sum_congr rfl fun i _ => ?_
    exact congrArg G (Fin.ext (Cert.SumBlocks.block_pos 2 4 p i))
  rw [h1, h2]

/-- THE REGROUPING: the sum as the grid brackets it is the plain triple sum. -/
theorem gridTotal_eq (f : Fin 32 → Fin 512 → Fin 512 → EReal) : gridTotal f = total f := by
  unfold gridTotal coreSum total
  simp only [running_last, columnRow]
  rw [sum_images (fun b => ∑ h : Fin 512, ∑ w : Fin 512, f b h w)]
  refine Finset.sum_congr rfl fun p _ => ?_
  -- the column sum moves inside the sums over groups, images and rows
  refine Finset.sum_comm.trans ?_
  refine Finset.sum_congr rfl fun i _ => ?_
  refine Finset.sum_comm.trans ?_
  refine Finset.sum_congr rfl fun bb _ => ?_
  exact Finset.sum_comm

end Cert.MaskedLoss

end
-- ==== Proof.Run.lean ====
/-
  The idealized kernel program's run, read: it ends with its result at the masked mean loss of its arguments.

  The generated run leaves the result buffer at the host lines after the grid applied to the grid's output arrays, which
  is the quotient of the grid's two totals; regrouped, these are the plain sums over every image, row and column, so
  the result is `result` of the four argument arrays as launched. The arguments end unchanged.
-/
import proofs.«121130_j15908558864773_2_alg».proof.Proof.Tail
import proofs.«121130_j15908558864773_2_alg».proof.Proof.Regroup

noncomputable section

open Idealize.ShloMosaic Idealize.ShloMosaic.TcCoe Idealize.SL.Sem Idealize.ShloMosaic.ValueIdx
open Idealize.ShloMosaic.Pipeline (Dat)
open scoped BigOperators

namespace Cert.MaskedLoss.Kernel

open Cert.KernelIdeal Cert.KernelIdeal.Gen Cert.MaskedLoss

variable (m : (ℓ : Loc nD τ sig) → Buf (Elt Ideal) ℓ) (ρ : Dev nD → PrngReg)

/-- The quotient of the grid's totals is the masked mean loss of the arguments. -/
theorem value_eq (c : Dev nD) :
    (fun _ : S_.Idx => quotient (gridTotal (fLoss m c)) (gridTotal (fKept m c)))
      = fun _ => result (m ((c : Thread nD τ).loc main_arg0)) (m ((c : Thread nD τ).loc main_arg1)) (m ((c : Thread nD τ).loc main_arg2)) (m ((c : Thread nD τ).loc main_arg3)) := by
  rw [gridTotal_eq, gridTotal_eq]
  rfl

/-- Every weakly fair execution of the idealized kernel program terminates with the result buffer at the masked mean
    loss of the argument arrays as launched, and the arguments unchanged. -/
theorem run : θ_run defs (onTc (τ := τ) (main (F := Ideal))) ⟨m, fun _ => 0, ρ⟩ fun r => ∀ c : Dev nD,
      r.2.mem ((c.tc : Thread nD τ).loc main_v9)
        = (fun _ => result (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans ((tail_value m c).trans (value_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.MaskedLoss.Kernel

end
-- ==== Proof.LibSumIdx.lean ====
/-
  A sum over the index set of a rank-4 array is the fourfold sum over its coordinates.

  The index set of an array of extents n0 × n1 × n2 × n3 is in bijection with the product of its four coordinate
  ranges (an index is the quadruple of its coordinates), so in any commutative additive monoid the sum of a family
  over the index set is the iterated sum over the coordinates, outermost axis first. For any extents.
-/
import Idealize.ShloMosaic.Lib.ValueIdx

noncomputable section

open scoped BigOperators

namespace Cert.SumIdx

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

end Cert.SumIdx

end
-- ==== Proof.RefSide.lean ====
/-
  The reference program's result, read index by index at the exact instance, is the masked mean loss.

  The program forms, element by element, the stable logistic loss of a logit against its image's label and the
  indicator that both masks exceed one half, sums the product and the indicator over the whole array, each onto zero,
  and divides the first sum by the larger of the second and one.  A sum over the index set of the array is the
  iterated sum over its coordinates, and the axis of extent one contributes a single term.
-/
import proofs.«121130_j15908558864773_2_alg».proof.Proof.Gen.ReferenceIdeal.Read
import proofs.«121130_j15908558864773_2_alg».proof.Proof.Spec
import proofs.«121130_j15908558864773_2_alg».proof.Proof.LibSumIdx

noncomputable section

open scoped BigOperators

namespace Cert.MaskedLoss.Ref

open Cert.MaskedLoss Idealize.ShloMosaic Idealize.ShloMosaic.ValueIdx
open Cert.ReferenceIdeal Cert.ReferenceIdeal.Read

/-- The label read at image `b`, row `h`, column `w` is the label of image `b`. -/
private theorem label_idx (b : Fin 32) (h w : Fin 512) :
    idx_main_v5 (idx_main_v8 (ix4 b (0 : Fin 1) h w)) = ix1 b := by
  funext a
  match a with
  | ⟨0, _⟩ => rfl

/-- The converted conjunction at an element is the kept indicator of the two mask values there. -/
private theorem kept_at (x2 x3 : Arr.Idx → EReal) (j : S32x1x512x512.Idx) :
    val_main_v16 (F := Ideal) x2 x3 j = kept (x2 j) (x3 j) := by
  rw [val_main_v16_apply, val_main_v4_apply, val_main_v1_apply, val_main_v3_apply, val_main_v0_apply,
    val_main_v2_apply, val_main_cst_apply, val_main_cst_0_apply]
  rfl

/-- The elementwise loss at image `b`, row `h`, column `w` is the loss of the logit there against label `b`. -/
private theorem loss_at (x0 : Arr.Idx → EReal) (x1 : Lab.Idx → EReal) (b : Fin 32) (h w : Fin 512) :
    val_main_v15 (F := Ideal) x0 x1 (ix4 b (0 : Fin 1) h w)
      = loss (x0 (ix4 b (0 : Fin 1) h w)) (x1 (ix1 b)) := by
  rw [val_main_v15_apply, val_main_v10_apply, val_main_v7_apply, val_main_v6_apply, val_main_cst_1_apply,
    val_main_v9_apply, val_main_v8_apply, val_main_v5_apply, label_idx, val_main_v14_apply, val_main_v13_apply,
    val_main_v12_apply, val_main_v11_apply]
  rfl

/-- The sum of the kept products over the array's index set is the numerator. -/
private theorem num_eq (x0 : Arr.Idx → EReal) (x1 : Lab.Idx → EReal) (x2 x3 : Arr.Idx → EReal) :
    ∑ j : S32x1x512x512.Idx, (val_main_v19 (F := Ideal) x0 x1 x2 x3) j = total (lossAt x0 x1 x2 x3) := by
  rw [Cert.SumIdx.sum_idx4]
  unfold total
  refine Finset.sum_congr rfl fun b _ => ?_
  rw [Fin.sum_univ_one]
  refine Finset.sum_congr rfl fun h _ => Finset.sum_congr rfl fun w _ => ?_
  rw [val_main_v19_apply, loss_at, kept_at]
  rfl

/-- The sum of the indicators over the array's index set is the count. -/
private theorem cnt_eq (x2 x3 : Arr.Idx → EReal) :
    ∑ j : S32x1x512x512.Idx, (val_main_v16 (F := Ideal) x2 x3) j = total (keptAt x2 x3) := by
  rw [Cert.SumIdx.sum_idx4]
  unfold total
  refine Finset.sum_congr rfl fun b _ => ?_
  rw [Fin.sum_univ_one]
  refine Finset.sum_congr rfl fun h _ => Finset.sum_congr rfl fun w _ => ?_
  rw [kept_at]
  rfl

/-- The reference program's result, as its generated stage term, is the masked mean loss. -/
theorem reference_eq (x0 : Arr.Idx → EReal) (x1 : Lab.Idx → EReal) (x2 x3 : Arr.Idx → EReal) :
    Cert.ReferenceIdeal.Read.val_main_v21 (F := Ideal) x0 x1 x2 x3 = fun _ => Cert.MaskedLoss.result x0 x1 x2 x3 := by
  funext i
  rw [val_main_v21_apply, val_main_v18_apply, val_main_v20_apply, val_main_v17_apply, val_main_cst_3_apply,
    num_eq, cnt_eq]
  rfl

end Cert.MaskedLoss.Ref

end
-- ==== Proof.lean ====
/-
  A masked mean of the logistic loss, computed on a two-core grid, against its direct formula.

  Both programs take logits x, masks p and n of shape [32, 1, 512, 512] and one label y per image. An element is kept
  where p > 1/2 and n > 1/2; its loss is max(x, 0) − x·y + log(1 + e^(−|x|)); the result is the sum of the kept
  elements' losses divided by max(number of kept elements, 1).

  The reference forms the two sums over all 32 · 512 · 512 elements at once. The kernel's grid has 2 cores × 4 steps;
  step t reads 4 consecutive images, sums its kept losses (and its kept indicators) over the 4 images and the 512 rows
  into a vector of 512 column sums, and adds that onto a running vector which restarts at each core's first step; at a
  core's last step the 512 running column sums are added up and written to the core's output block; the host then adds
  the two cores' numbers and divides. On the extended reals the elementwise terms of the two programs are the same
  numbers (the kernel's 0 − |x| is the reference's −|x|; the kept bit widened and read signed is the bit read unsigned;
  exponential and logarithm are one function on both sides), and addition there is commutative and associative, so the
  grid's bracketing of each sum is the plain sum: the two results are equal for all inputs, finite or not.

  The three frames are the generated ones (the reference's from its generated run); the idealization rewrote nothing.
-/
import proofs.«121130_j15908558864773_2_alg».proof.Defs
import proofs.«121130_j15908558864773_2_alg».proof.Proof.Gen.Kernel
import proofs.«121130_j15908558864773_2_alg».proof.Proof.Gen.Kernel.Frame
import proofs.«121130_j15908558864773_2_alg».proof.Proof.Gen.KernelIdeal
import proofs.«121130_j15908558864773_2_alg».proof.Proof.Gen.KernelIdeal.Frame
import proofs.«121130_j15908558864773_2_alg».proof.Proof.Gen.ReferenceIdeal
import proofs.«121130_j15908558864773_2_alg».proof.Proof.Gen.ReferenceIdeal.Run
import proofs.«121130_j15908558864773_2_alg».proof.Proof.Gen.ReferenceIdeal.Read
import proofs.«121130_j15908558864773_2_alg».proof.Proof.Gen.Pre_finite_inputs
import proofs.«121130_j15908558864773_2_alg».proof.Proof.Run
import proofs.«121130_j15908558864773_2_alg».proof.Proof.RefSide
import Idealize.ShloMosaic.Adequacy
import Idealize.ShloMosaic.Init

noncomputable section

namespace Cert.Proof

open Idealize.ShloMosaic Idealize.SL.Sem

/-- The kernel program as printed runs, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- On the extended reals both programs end with the masked mean loss of arguments that agree. -/
theorem algebraic : Cert.algebraic_KernelIdeal_ReferenceIdeal := by
  intro m ρ m' ρ' _ hagree
  refine ⟨fun c => fun _ => Cert.MaskedLoss.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.MaskedLoss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.MaskedLoss.Ref.reference_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
